-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S800000x64 .f32) (main_arg1 : IVec S2x800000 32) (main_arg2 : FVec F S50000x64 .f32) (main_arg3 : FVec F S64x64 .f32) (main_arg4 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S800000x64 : Shape := ⟨2, ![800000, 64]⟩
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x65 : Shape := ⟨2, ![800000, 65]⟩
abbrev S50000x65 : Shape := ⟨2, ![50000, 65]⟩
abbrev S50000x1 : Shape := ⟨2, ![50000, 1]⟩
abbrev S50000 : Shape := ⟨1, ![50000]⟩
abbrev S1x64 : Shape := ⟨2, ![1, 64]⟩
abbrev S5000x64 : Shape := ⟨2, ![5000, 64]⟩

abbrev nBuf : Space → Nat
  | .hbm => 51
  | .vmem => 8
  | .smem => 0
  | _ => 0

abbrev bufTy : (tb : Table) → Fin (tcTables nBuf tb) → BufTy
  | .hbm, ⟨0, _⟩ => ⟨S800000x64, .f32⟩
  | .hbm, ⟨1, _⟩ => ⟨S2x800000, .i32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000x1, .f32⟩
  | .hbm, ⟨11, _⟩ => ⟨S800000x65, .f32⟩
  | .hbm, ⟨12, _⟩ => ⟨S_, .f32⟩
  | .hbm, ⟨13, _⟩ => ⟨S50000x65, .f32⟩
  | .hbm, ⟨14, _⟩ => ⟨S800000x1, .i32⟩
  | .hbm, ⟨15, _⟩ => ⟨S50000x65, .f32⟩
  | .hbm, ⟨16, _⟩ => ⟨S50000x64, .f32⟩
  | .hbm, ⟨17, _⟩ => ⟨S50000x1, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S50000x64, .f32⟩
  | .hbm, ⟨26, _⟩ => ⟨S64x64, .f32⟩
  | .hbm, ⟨27, _⟩ => ⟨S1x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  concatenates_S800000x64_S800000x1_S800000x65_d1 : Shape.Concatenates [S800000x64, S800000x1] S800000x65 1
  bcast_S_S50000x65 : S_.BroadcastsInDim S50000x65 (![] : Fin 0 → Fin S50000x65.rank)
  bcast_S800000_S800000x1_0 : S800000.BroadcastsInDim S800000x1 (![0] : Fin 1 → Fin S800000x1.rank)
  slices_S50000x65_S50000x64_0_0 : S50000x65.Slices ![0, 0] S50000x64
  slices_S50000x65_S50000x1_0_64 : S50000x65.Slices ![0, 64] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S800000 : S_.BroadcastsInDim S800000 (![] : Fin 0 → Fin S800000.rank)
  bcast_S_S800000x64 : S_.BroadcastsInDim S800000x64 (![] : Fin 0 → Fin S800000x64.rank)
  scatter_S50000x65_S800000x1_S800000x65_1_0_0_1_wf : ScatterDims.WF S50000x65 S800000x1 S800000x65 [1] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S800000x64 : Shape := ⟨2, ![800000, 64]⟩
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S800000x64, .f32⟩
  | .hbm, ⟨1, _⟩ => ⟨S2x800000, .i32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S64x64, .f32⟩
  | .hbm, ⟨31, _⟩ => ⟨S50000x64, .f32⟩
  | .hbm, ⟨32, _⟩ => ⟨S1x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S800000x64, .f32⟩
  | .hbm, ⟨62, _⟩ => ⟨S_, .f32⟩
  | .hbm, ⟨63, _⟩ => ⟨S800000x64, .f32⟩
  | .hbm, ⟨64, _⟩ => ⟨S800000x64, .f32⟩
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000x64 : S_.BroadcastsInDim S800000x64 (![] : Fin 0 → Fin S800000x64.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.NodeSpec.lean ====
/-
  The node embedding both programs compute, as one function of the five argument arrays, index by index.

  There are 800000 edges and 50000 nodes with 64 features each. Edge `e` has the source node `src e`, the signed
  integer in row 0 of the index array. For node `n` and feature `k`

      mean (n, k) = (0 + ∑ over edges e with src e = n of edge_attr (e, k)) / max 1 (0 + number of such edges),

  the mean of the attributes of the edges leaving `n` (zero for a node with none: the sum is empty and the divisor
  is clamped to one), and the embedding of node `n` at output feature `q` is

      emb (n, q) = logistic (∑ k, (node_attr (n, k) + mean (n, k) · ½) · W (q, k) + b q).

  The float literals `0`, `1` and `½` are kept as the words the programs print; both programs print the same words.
-/
import Idealize.ShloMosaic.PureOps.Ideal
import Idealize.ShloMosaic.Lib.ValueIdx

noncomputable section

namespace Cert.NodeEmbed

open Idealize.ShloMosaic Idealize.ShloMosaic.ValueIdx

/-- The words of the three float literals. -/
abbrev zeroW : EReal := Ideal.ofBits .f32 0x00000000#32
abbrev oneW : EReal := Ideal.ofBits .f32 0x3F800000#32
abbrev halfW : EReal := Ideal.ofBits .f32 0x3F000000#32

/-- The word `0x3F800000` is the number one. -/
theorem oneW_eq : Ideal.ofBits .f32 0x3F800000#32 = 1 := by
  simp [Ideal.ofBits, Ideal.ieee, -EReal.coe_mul]; norm_num

/-- Edge `e`'s source node: row 0 of the index array, read signed. -/
def src (ei : IVec ⟨2, ![2, 800000]⟩ 32) (e : Fin 800000) : Int := (ei (ix2 (0 : Fin 2) e)).toInt

/-- The sum of `f` over the edges whose source is node `n`. -/
def segSum (ei : IVec ⟨2, ![2, 800000]⟩ 32) (f : Fin 800000 → EReal) (n : Fin 50000) : EReal :=
  ∑ e : Fin 800000, if src ei e = (n.val : Int) then f e else 0

/-- The mean over node `n`'s outgoing edges of feature `k` of their attributes. -/
def meanAgg (ea : (⟨2, ![800000, 64]⟩ : Shape).Idx → EReal) (ei : IVec ⟨2, ![2, 800000]⟩ 32) (n : Fin 50000) (k : Fin 64) : EReal :=
  Ideal.div (zeroW + segSum ei (fun e => ea (ix2 e k)) n) (max oneW (zeroW + segSum ei (fun _ => oneW) n))

/-- Node `n`'s embedding at output feature `q`. -/
def nodeEmb (ea : (⟨2, ![800000, 64]⟩ : Shape).Idx → EReal) (ei : IVec ⟨2, ![2, 800000]⟩ 32)
    (na : (⟨2, ![50000, 64]⟩ : Shape).Idx → EReal) (W : (⟨2, ![64, 64]⟩ : Shape).Idx → EReal)
    (b : (⟨1, ![64]⟩ : Shape).Idx → EReal) : (⟨2, ![50000, 64]⟩ : Shape).Idx → EReal := fun i =>
  Ideal.logistic ((∑ k : Fin 64, (na (ix2 (i 0) k) + meanAgg ea ei (i 0) k * halfW) * W (ix2 (i 1) k)) + b (ix1 (i 1)))

/-- The embedding read at node `n`, output feature `q`. -/
theorem nodeEmb_apply (ea : (⟨2, ![800000, 64]⟩ : Shape).Idx → EReal) (ei : IVec ⟨2, ![2, 800000]⟩ 32)
    (na : (⟨2, ![50000, 64]⟩ : Shape).Idx → EReal) (W : (⟨2, ![64, 64]⟩ : Shape).Idx → EReal)
    (b : (⟨1, ![64]⟩ : Shape).Idx → EReal) (n : Fin 50000) (q : Fin 64) :
    nodeEmb ea ei na W b (ix2 n q)
      = Ideal.logistic ((∑ k : Fin 64, (na (ix2 n k) + meanAgg ea ei n k * halfW) * W (ix2 q k)) + b (ix1 q)) := rfl

end Cert.NodeEmbed

end
-- ==== Proof.KernelPayload.lean ====
/-
  What the kernel body leaves in its output block, read at an index.

  At one grid point the body holds a block `x` of 5000 node-attribute rows, the matching block `a` of mean rows, the
  whole 64 × 64 matrix `wt` (the transposed weights) and the 1 × 64 bias row `bias`. It forms `x + a · ½`, multiplies
  by `wt` on the matrix unit into a zero accumulator, adds the bias row to every row and applies the logistic
  function. The narrowing of the two factors to bf16 is the identity on the extended reals, so row `p`, column `q` of
  the block is

      logistic (∑ k, (x (p, k) + a (p, k) · ½) · wt (k, q) + bias (0, q)).
-/
import proofs.«175701_j59021440582266_2_alg».proof.Proof.Gen.KernelIdeal.Frame
import proofs.«175701_j59021440582266_2_alg».proof.Proof.NodeSpec
import Idealize.ShloMosaic.Lib.Pipeline.Value
import Idealize.ShloMosaic.Lib.ValueIdx
import Idealize.ShloMosaic.Lib.ValueLayout
import Idealize.ShloMosaic.PureOps.Ideal.Laws

noncomputable section

namespace Cert.NodeEmbed.Kernel

open Idealize.ShloMosaic Idealize.ShloMosaic.ValueIdx
open Cert.KernelIdeal Cert.KernelIdeal.Gen Cert.NodeEmbed

/-! ## The block product: rows times the contracted feature axis -/

theorem lhs_row (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhs_row (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhs_col (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix unit's product into a zero accumulator, at row `p` and column `q`, is the sum over the contracted
    feature `k` of the left factor at `(p, k)` times the right factor at `(k, q)`. -/
theorem blockProduct_read (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The payload and the output buffer -/

/-- The body's one stored value at row `p`, column `q`, from the four loaded blocks. -/
theorem pay_read (x0 x1 : Vec Ideal S5000x64 .f32) (x2 : Vec Ideal S64x64 .f32) (x3 : Vec Ideal S1x64 .f32)
    (p : Fin 5000) (q : Fin 64) :
    k0_pay1 x0 x1 x2 x3 (ix2 p q)
      = Ideal.logistic ((∑ k : Fin 64, (x0 (ix2 p k) + x1 (ix2 p k) * halfW) * x2 (ix2 k q)) + x3 (ix2 (0 : Fin 1) q)) := by
  have h1 : k0_pay1 x0 x1 x2 x3 (ix2 p q)
      = Ideal.logistic (matmul dot_S5000x64_S64x64_S5000x64_1_0_0_1_n_n none
            (truncf .bf16 (addf x0 (mulf (shapeCast S5000x64 x1 shapeCasts_S5000x64_S5000x64)
              (broadcast S5000x64 (Scalar.ofBits (F := Ideal) .f32 0x3F000000#32)))) bitsLt_bf16_f32)
            (truncf .bf16 (shapeCast S64x64 x2 shapeCasts_S64x64_S64x64) bitsLt_bf16_f32)
            (constant (F := Ideal) S5000x64 .f32 0x00000000#32) (ix2 p q)
          + broadcastTo S5000x64 (shapeCast S1x64 x3 shapeCasts_S1x64_S1x64) broadcasts_S1x64_S5000x64 (ix2 p q)) := rfl
  rw [h1, blockProduct_read, broadcastTo_1b_ab_apply, shapeCast_self, shapeCast_self, shapeCast_self]
  rfl

theorem hz : (![0, 0] : Fin 2 → Nat) = fun _ => 0 := funext fun a => by fin_cases a <;> rfl

/-- The output buffer after the body, at an index. -/
theorem out_read (x0 x1 : Vec Ideal S5000x64 .f32) (x2 : Vec Ideal S64x64 .f32) (x3 : Vec Ideal S1x64 .f32)
    (j : S5000x64.Idx) :
    out0_4 x0 x1 x2 x3 j
      = Ideal.logistic ((∑ k : Fin 64, (x0 (ix2 (j 0) k) + x1 (ix2 (j 0) k) * halfW) * x2 (ix2 k (j 1)))
          + x3 (ix2 (0 : Fin 1) (j 1))) := by
  unfold out0_4
  rw [View.canon_unit_zero hz]
  simp only [View.ld_unit_zero (S := S5000x64) hz, View.ld_unit_zero (S := S64x64) hz, View.ld_unit_zero (S := S1x64) hz]
  obtain ⟨p, q, rfl⟩ : ∃ (p : Fin 5000) (q : Fin 64), j = ix2 p q := ⟨j 0, j 1, eq_ix2 j⟩
  exact pay_read x0 x1 x2 x3 p q

end Cert.NodeEmbed.Kernel

end
-- ==== Proof.KernelBlocks.lean ====
/-
  The array the kernel's region leaves, as one function of the four arrays it reads.

  The grid has ten points. Point `t` reads rows `5000·t … 5000·t + 4999` of the node attributes and of the means, the
  whole transposed weight matrix and the bias row, and writes rows `5000·t … 5000·t + 4999` of the output. Row `p` of the
  block at point `t` is row `5000·t + p` of the array, so what point `t` writes back is block `t` of

      regionOut (n, q) = logistic (∑ k, (A0 (n, k) + A1 (n, k) · ½) · A2 (k, q) + A3 (0, q)),

  and the ten blocks cover all 50000 rows: the output array ends holding `regionOut` of the arrays the region found.
-/
import proofs.«175701_j59021440582266_2_alg».proof.Proof.Gen.KernelIdeal.Frame
import proofs.«175701_j59021440582266_2_alg».proof.Proof.KernelPayload
import Idealize.ShloMosaic.Lib.Pipeline.Value
import Idealize.ShloMosaic.Lib.ValueIdx

set_option maxRecDepth 16384

noncomputable section

namespace Cert.NodeEmbed.Kernel

open Idealize.ShloMosaic Idealize.ShloMosaic.TcCoe Idealize.ShloMosaic.ValueIdx Idealize.SL.Sem
open Idealize.ShloMosaic.Pipeline (Dat)
open Cert.KernelIdeal Cert.KernelIdeal.Gen Cert.NodeEmbed

variable (m : (ℓ : Loc nD τ sig) → Buf (Elt Ideal) ℓ)

/-- The region's output array from the node attributes `A0`, the means `A1`, the transposed weights `A2` and the
    bias row `A3`. -/
def regionOut (A0 A1 : S50000x64.Idx → EReal) (A2 : S64x64.Idx → EReal) (A3 : S1x64.Idx → EReal) : S50000x64.Idx → EReal :=
  fun i => Ideal.logistic ((∑ k : Fin 64, (A0 (ix2 (i 0) k) + A1 (ix2 (i 0) k) * halfW) * A2 (ix2 k (i 1)))
    + A3 (ix2 (0 : Fin 1) (i 1)))

/-- The printed index maps over the grid: the two row-blocked inputs move with the output's row block, the weights
    and the bias stay at block zero, and the output's row block at point `t` is `t`. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every row block is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- Point `t`'s output buffer from the blocks of four arrays, at an index: `regionOut` of the arrays at the array index
    the block index stands for. -/
theorem block_read (A0 A1 : S50000x64.Idx → EReal) (A2 : S64x64.Idx → EReal) (A3 : S1x64.Idx → EReal)
    (t : Fin cfg0.N) (j : S5000x64.Idx) :
    out0_4 (((cfg0.win 0).blk t).view.read (Elt Ideal) A0) (((cfg0.win 1).blk t).view.read (Elt Ideal) A1)
        (((cfg0.win 2).blk t).view.read (Elt Ideal) A2) (((cfg0.win 3).blk t).view.read (Elt Ideal) A3) j
      = regionOut A0 A1 A2 A3 (((cfg0.win 4).blk t).view.emb j) := by
  obtain ⟨e0, e1, e2, e3, e4, e5, e6, e7, e8⟩ := idx_facts t
  refine (out_read _ _ _ _ j).trans ?_
  unfold regionOut
  have hj0 : (j 0).val < 5000 := (j 0).isLt
  have hj1 : (j 1).val < 64 := (j 1).isLt
  have r0 : ∀ k : Fin 64, ((cfg0.win 0).blk t).view.read (Elt Ideal) A0 (ix2 (j 0) k)
      = A0 (ix2 ((((cfg0.win 4).blk t).view.emb j) 0) k) := fun k => by
    show A0 (((cfg0.win 0).blk t).view.emb (ix2 (j 0) k)) = _
    refine congrArg A0 (funext fun a => Fin.ext ?_)
    have hk : k.val < 64 := k.isLt
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * k.val = k.val; omega
  have r1 : ∀ k : Fin 64, ((cfg0.win 1).blk t).view.read (Elt Ideal) A1 (ix2 (j 0) k)
      = A1 (ix2 ((((cfg0.win 4).blk t).view.emb j) 0) k) := fun k => by
    show A1 (((cfg0.win 1).blk t).view.emb (ix2 (j 0) k)) = _
    refine congrArg A1 (funext fun a => Fin.ext ?_)
    have hk : k.val < 64 := k.isLt
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * k.val = k.val; omega
  have r2 : ∀ k : Fin 64, ((cfg0.win 2).blk t).view.read (Elt Ideal) A2 (ix2 k (j 1))
      = A2 (ix2 k ((((cfg0.win 4).blk t).view.emb j) 1)) := fun k => by
    show A2 (((cfg0.win 2).blk t).view.emb (ix2 k (j 1))) = _
    refine congrArg A2 (funext fun a => Fin.ext ?_)
    have hk : k.val < 64 := k.isLt
    match a with
    | ⟨0, _⟩ => show win0_2.index t (0 : Fin 2) * 64 + 1 * k.val = k.val; omega
    | ⟨1, _⟩ => show win0_2.index t (1 : Fin 2) * 64 + 1 * (j 1).val = win0_4.index t (1 : Fin 2) * 64 + 1 * (j 1).val; omega
  have r3 : ((cfg0.win 3).blk t).view.read (Elt Ideal) A3 (ix2 (0 : Fin 1) (j 1))
      = A3 (ix2 (0 : Fin 1) ((((cfg0.win 4).blk t).view.emb j) 1)) := by
    show A3 (((cfg0.win 3).blk t).view.emb (ix2 (0 : Fin 1) (j 1))) = _
    refine congrArg A3 (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_4.index t (1 : Fin 2) * 64 + 1 * (j 1).val; omega
  refine congrArg Ideal.logistic (congrArg₂ (fun u v : EReal => u + v) (Finset.sum_congr rfl fun k _ => ?_) r3)
  rw [r0 k, r1 k, r2 k]

/-- What point `t` writes back is block `t` of `regionOut` of the arrays as the region finds them. -/
theorem flushed_eq (c : Dev nD) (t : Fin cfg0.N) :
    (dats m 0 c).flushed 4 t = ((cfg0.win 4).blk t).view.read (Elt Ideal)
      (regionOut (V m c main_arg2) (V m c main_v15) (V m c main_v16) (V m c main_v17)) := by
  show (cfg0.win 4).cut (grid0.coords t) ((dats m 0 c).after 4 t) = _
  rw [after0_4]
  funext j
  exact block_read (V m c main_arg2) (V m c main_v15) (V m c main_v16) (V m c main_v17) t j

/-- An index of the output array is in point `t`'s block iff each coordinate is in the block's range on its axis. -/
theorem mem_blk (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v18).slice (win0_4.rect t)).set ↔ _
  rw [View.set_slice_whole, Rect.mem_set_unit]
  exact Iff.rfl

/-- Every index of the output array is in the block of the point its row falls in (row `r`: point `r / 5000`). -/
theorem cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The output array after the region. -/
theorem final (c : Dev nD) :
    (dats m 0 c).arrAt 4 cfg0.N = regionOut (V m c main_arg2) (V m c main_v15) (V m c main_v16) (V m c main_v17) :=
  (dats m 0 c).arrAt_eq_of_cover 4 _ (fun t _ => flushed_eq m c t) cover

end Cert.NodeEmbed.Kernel

end
-- ==== Proof.LibScatterRows.lean ====
/-
  A host scatter-add whose scatter indices name ROWS.

  The operand is a matrix `x : [N, C]` (or a vector `x : [N]`), the scatter indices are a column `idx : [E, 1]` of
  signed integers, one per update row, and the updates are `upd : [E, C]` (or `[E]`). Update row `e` is added into
  the operand row whose number is `idx[e, 0]` read as a signed integer, column by column; a row whose index is
  negative or not below `N` is dropped. This is what `jax.ops.segment_sum(upd, ids, num_segments = N)` lowers to.

  At the ideal instance the result, read at row `n` and column `c`, is the operand's element plus the sum, over
  the update rows `e` whose index is `n`, of `upd[e, c]`:

      scatterAdd x idx upd (n, c) = x (n, c) + ∑ e, if idx[e, 0] = n then upd (e, c) else 0.

  The sum ranges over all `E` update rows with the rows that land elsewhere contributing zero, so two scatters
  with the same indices are compared term by term: in particular a scatter of `[upd | ones]` into `[N, C + 1]`
  holds, in its first `C` columns, the scatter of `upd` into `[N, C]`, and in its last column the scatter of the
  ones into `[N]` (the segment counts).
-/
import Idealize.ShloMosaic.PureOps.Ideal
import Idealize.ShloMosaic.Lib.ValueIdx

namespace Idealize.ShloMosaic.ScatterRows

open Idealize.ShloMosaic Idealize.ShloMosaic.ValueIdx

variable {N E C : Nat}

/-! ## Small facts about the axis lists of a rank-2 and a rank-1 operand -/

theorem mem_zero_two : (0 : Fin 2) ∈ ([0] : List (Fin 2)) := by decide
theorem not_mem_one_two : (1 : Fin 2) ∉ ([0] : List (Fin 2)) := by decide
theorem not_kept_zero_two : (0 : Fin 2) ∉ (List.finRange 2).filter (· ∉ ([0] : List (Fin 2))) := by decide
theorem kept_one_two : (1 : Fin 2) ∈ (List.finRange 2).filter (· ∉ ([0] : List (Fin 2))) := by decide
theorem mem_zero_one : (0 : Fin 1) ∈ ([0] : List (Fin 1)) := by decide
theorem not_kept_zero_one : (0 : Fin 1) ∉ (List.finRange 1).filter (· ∉ ([0] : List (Fin 1))) := by decide

/-! ## The matrix form: `[E, C]` updates into an `[N, C]` operand -/

/-- The dimension numbers of a scatter of matrix rows: the updates' column axis is the window, the operand's row
    axis is the one the index names, and the indices' last axis is the (one-component) index vector. -/
def IsRows (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

section Matrix
variable (wf : ScatterDims.WF ⟨2, ![N, C]⟩ ⟨2, ![E, 1]⟩ ⟨2, ![E, C]⟩ [1] [0] [0] 1)

/-- On the row axis the window starts at the update row's index, -/
theorem start_row {w : Nat} (idx : IVec ⟨2, ![E, 1]⟩ w) (j : (⟨2, ![E, C]⟩ : Shape).Idx) :
    (ScatterDims.mk [1] [0] [0] 1 wf).start j idx 0 = (idx (ix2 (j 0) (0 : Fin 1))).toInt := by
  unfold ScatterDims.start
  rw [dif_pos (by exact mem_zero_two)]
  congr 2
  funext b
  match b with
  | ⟨0, _⟩ => rfl
  | ⟨1, _⟩ => rfl

/-- on the column axis at zero; -/
theorem start_col {w : Nat} (idx : IVec ⟨2, ![E, 1]⟩ w) (j : (⟨2, ![E, C]⟩ : Shape).Idx) :
    (ScatterDims.mk [1] [0] [0] 1 wf).start j idx 1 = 0 := by
  unfold ScatterDims.start
  rw [dif_neg (by exact not_mem_one_two)]

/-- the window has no extent along the rows, -/
theorem window_row (j : (⟨2, ![E, C]⟩ : Shape).Idx) : (ScatterDims.mk [1] [0] [0] 1 wf).window j 0 = 0 := by
  unfold ScatterDims.window
  rw [dif_neg (by exact not_kept_zero_two)]

/-- and along the columns its coordinate is the update's column. -/
theorem window_col (j : (⟨2, ![E, C]⟩ : Shape).Idx) : (ScatterDims.mk [1] [0] [0] 1 wf).window j 1 = (j 1).val := by
  unfold ScatterDims.window
  rw [dif_pos (by exact kept_one_two)]
  rfl

/-- Update element `j = (e, c)` lands on operand element `i` exactly when the index of row `e` is `i`'s row
    and `c` is `i`'s column. -/
theorem resultIdx?_mk {w : Nat} (idx : IVec ⟨2, ![E, 1]⟩ w) (j : (⟨2, ![E, C]⟩ : Shape).Idx)
    (i : (⟨2, ![N, C]⟩ : Shape).Idx) :
    (ScatterDims.mk [1] [0] [0] 1 wf).resultIdx? j idx = some i
      ↔ (idx (ix2 (j 0) (0 : Fin 1))).toInt = ((i 0).val : Int) ∧ (j 1).val = (i 1).val := by
  have hi0 : (i 0).val < N := (i 0).isLt
  have hi1 : (i 1).val < C := (i 1).isLt
  have hj1 : (j 1).val < C := (j 1).isLt
  unfold ScatterDims.resultIdx?
  split
  · rename_i h
    rw [Option.some.injEq]
    constructor
    · intro hf
      have e0 : ((ScatterDims.mk [1] [0] [0] 1 wf).start j idx 0 + ((ScatterDims.mk [1] [0] [0] 1 wf).window j 0 : Nat)).toNat = (i 0).val :=
        congrArg (fun f => (f 0).val) hf
      have e1 : ((ScatterDims.mk [1] [0] [0] 1 wf).start j idx 1 + ((ScatterDims.mk [1] [0] [0] 1 wf).window j 1 : Nat)).toNat = (i 1).val :=
        congrArg (fun f => (f 1).val) hf
      have h0 := h 0
      rw [start_row, window_row] at e0 h0
      rw [start_col, window_col] at e1
      constructor <;> omega
    · rintro ⟨e0, e1⟩
      funext a
      apply Fin.ext
      match a with
      | ⟨0, _⟩ =>
        show ((ScatterDims.mk [1] [0] [0] 1 wf).start j idx 0 + ((ScatterDims.mk [1] [0] [0] 1 wf).window j 0 : Nat)).toNat = (i 0).val
        rw [start_row, window_row]; omega
      | ⟨1, _⟩ =>
        show ((ScatterDims.mk [1] [0] [0] 1 wf).start j idx 1 + ((ScatterDims.mk [1] [0] [0] 1 wf).window j 1 : Nat)).toNat = (i 1).val
        rw [start_col, window_col]; omega
  · rename_i h
    constructor
    · intro hf; exact absurd hf (by simp)
    · rintro ⟨e0, e1⟩
      refine absurd (fun a => ?_) h
      match a with
      | ⟨0, _⟩ =>
        show 0 ≤ (ScatterDims.mk [1] [0] [0] 1 wf).start j idx 0 + ((ScatterDims.mk [1] [0] [0] 1 wf).window j 0 : Nat)
          ∧ (ScatterDims.mk [1] [0] [0] 1 wf).start j idx 0 + ((ScatterDims.mk [1] [0] [0] 1 wf).window j 0 : Nat) < (N : Int)
        rw [start_row, window_row]; omega
      | ⟨1, _⟩ =>
        show 0 ≤ (ScatterDims.mk [1] [0] [0] 1 wf).start j idx 1 + ((ScatterDims.mk [1] [0] [0] 1 wf).window j 1 : Nat)
          ∧ (ScatterDims.mk [1] [0] [0] 1 wf).start j idx 1 + ((ScatterDims.mk [1] [0] [0] 1 wf).window j 1 : Nat) < (C : Int)
        rw [start_col, window_col]; omega

end Matrix

/-- The same for any record with these dimension numbers. -/
theorem resultIdx?_rows (d : ScatterDims ⟨2, ![N, C]⟩ ⟨2, ![E, 1]⟩ ⟨2, ![E, C]⟩) (hd : IsRows d) {w : Nat}
    (idx : IVec ⟨2, ![E, 1]⟩ w) (j : (⟨2, ![E, C]⟩ : Shape).Idx) (i : (⟨2, ![N, C]⟩ : Shape).Idx) :
    d.resultIdx? j idx = some i
      ↔ (idx (ix2 (j 0) (0 : Fin 1))).toInt = ((i 0).val : Int) ∧ (j 1).val = (i 1).val := by
  obtain ⟨uw, iw, sd, iv, wf⟩ := d
  obtain ⟨h1, h2, h3, h4⟩ := hd
  dsimp only at h1 h2 h3 h4
  subst h1 h2 h3 h4
  exact resultIdx?_mk wf idx j i

/-- A scatter-add of matrix rows read at an element: the operand's element plus the sum over the update rows whose
    index is that row of the update's element in that column. -/
theorem hostScatterAdd_rows_apply (d : ScatterDims ⟨2, ![N, C]⟩ ⟨2, ![E, 1]⟩ ⟨2, ![E, C]⟩) (hd : IsRows d) {w : Nat}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [resultIdx?_rows d hd]
  show (∑ b : Fin C, if (idx (ix2 e (0 : Fin 1))).toInt = (n.val : Int) ∧ b.val = c.val then upd (ix2 e b) else 0) = _
  by_cases hP : (idx (ix2 e (0 : Fin 1))).toInt = (n.val : Int)
  · simp only [hP, true_and, if_true, Fin.val_inj]
    rw [Finset.sum_ite_eq' Finset.univ c (fun b => upd (ix2 e b)), if_pos (Finset.mem_univ c)]
  · simp only [hP, false_and, if_false, Finset.sum_const_zero]

/-- The same for the printed host operation (`Host.scatterAdd`, any float format). -/
theorem Host_scatterAdd_rows_apply {φ : FTy} (d : ScatterDims ⟨2, ![N, C]⟩ ⟨2, ![E, 1]⟩ ⟨2, ![E, C]⟩) (hd : IsRows d) {w : Nat}
    (x : FVec Ideal ⟨2, ![N, C]⟩ φ) (idx : IVec ⟨2, ![E, 1]⟩ w) (upd : FVec Ideal ⟨2, ![E, C]⟩ φ)
    (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hd x idx upd n c

/-! ## The vector form: `[E]` updates into an `[N]` operand -/

/-- The dimension numbers of a scatter of vector entries: no window axis. -/
def IsEntries (d : ScatterDims ⟨1, ![N]⟩ ⟨2, ![E, 1]⟩ ⟨1, ![E]⟩) : Prop :=
  d.updateWindowDims = [] ∧ d.insertedWindowDims = [0] ∧ d.scatterDimsToOperandDims = [0] ∧ d.indexVectorDim = 1

section Vector
variable (wf : ScatterDims.WF ⟨1, ![N]⟩ ⟨2, ![E, 1]⟩ ⟨1, ![E]⟩ [] [0] [0] 1)

theorem start_entry {w : Nat} (idx : IVec ⟨2, ![E, 1]⟩ w) (j : (⟨1, ![E]⟩ : Shape).Idx) :
    (ScatterDims.mk [] [0] [0] 1 wf).start j idx 0 = (idx (ix2 (j 0) (0 : Fin 1))).toInt := by
  unfold ScatterDims.start
  rw [dif_pos (by exact mem_zero_one)]
  congr 2
  funext b
  match b with
  | ⟨0, _⟩ => rfl
  | ⟨1, _⟩ => rfl

theorem window_entry (j : (⟨1, ![E]⟩ : Shape).Idx) : (ScatterDims.mk [] [0] [0] 1 wf).window j 0 = 0 := by
  unfold ScatterDims.window
  rw [dif_neg (by exact not_kept_zero_one)]

/-- Update entry `j = e` lands on operand entry `i` exactly when the index of `e` is `i`. -/
theorem resultIdx?_mk_vec {w : Nat} (idx : IVec ⟨2, ![E, 1]⟩ w) (j : (⟨1, ![E]⟩ : Shape).Idx)
    (i : (⟨1, ![N]⟩ : Shape).Idx) :
    (ScatterDims.mk [] [0] [0] 1 wf).resultIdx? j idx = some i
      ↔ (idx (ix2 (j 0) (0 : Fin 1))).toInt = ((i 0).val : Int) := by
  have hi0 : (i 0).val < N := (i 0).isLt
  unfold ScatterDims.resultIdx?
  split
  · rename_i h
    rw [Option.some.injEq]
    constructor
    · intro hf
      have e0 : ((ScatterDims.mk [] [0] [0] 1 wf).start j idx 0 + ((ScatterDims.mk [] [0] [0] 1 wf).window j 0 : Nat)).toNat = (i 0).val :=
        congrArg (fun f => (f 0).val) hf
      have h0 := h 0
      rw [start_entry, window_entry] at e0 h0
      omega
    · intro e0
      funext a
      apply Fin.ext
      match a with
      | ⟨0, _⟩ =>
        show ((ScatterDims.mk [] [0] [0] 1 wf).start j idx 0 + ((ScatterDims.mk [] [0] [0] 1 wf).window j 0 : Nat)).toNat = (i 0).val
        rw [start_entry, window_entry]; omega
  · rename_i h
    constructor
    · intro hf; exact absurd hf (by simp)
    · intro e0
      refine absurd (fun a => ?_) h
      match a with
      | ⟨0, _⟩ =>
        show 0 ≤ (ScatterDims.mk [] [0] [0] 1 wf).start j idx 0 + ((ScatterDims.mk [] [0] [0] 1 wf).window j 0 : Nat)
          ∧ (ScatterDims.mk [] [0] [0] 1 wf).start j idx 0 + ((ScatterDims.mk [] [0] [0] 1 wf).window j 0 : Nat) < (N : Int)
        rw [start_entry, window_entry]; omega

end Vector

theorem resultIdx?_entries (d : ScatterDims ⟨1, ![N]⟩ ⟨2, ![E, 1]⟩ ⟨1, ![E]⟩) (hd : IsEntries d) {w : Nat}
    (idx : IVec ⟨2, ![E, 1]⟩ w) (j : (⟨1, ![E]⟩ : Shape).Idx) (i : (⟨1, ![N]⟩ : Shape).Idx) :
    d.resultIdx? j idx = some i ↔ (idx (ix2 (j 0) (0 : Fin 1))).toInt = ((i 0).val : Int) := by
  obtain ⟨uw, iw, sd, iv, wf⟩ := d
  obtain ⟨h1, h2, h3, h4⟩ := hd
  dsimp only at h1 h2 h3 h4
  subst h1 h2 h3 h4
  exact resultIdx?_mk_vec wf idx j i

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A scatter-add of vector entries read at an entry: the operand's entry plus the sum of the updates whose index
    is that entry. -/
theorem hostScatterAdd_entries_apply (d : ScatterDims ⟨1, ![N]⟩ ⟨2, ![E, 1]⟩ ⟨1, ![E]⟩) (hd : IsEntries d) {w : Nat}
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e : Fin E, if (idx (ix2 e (0 : Fin 1))).toInt = (n.val : Int) then upd (ix1 e) else 0 := by
  unfold Ideal.hostScatterAdd
  congr 1
  rw [Finset.sum_filter, ← Equiv.sum_comp (idxEquiv1 (n := E)).symm]
  refine Finset.sum_congr rfl fun e _ => ?_
  simp only [resultIdx?_entries d hd]
  rfl

/-- The same for the printed host operation (`Host.scatterAdd`, any float format). -/
theorem Host_scatterAdd_entries_apply {φ : FTy} (d : ScatterDims ⟨1, ![N]⟩ ⟨2, ![E, 1]⟩ ⟨1, ![E]⟩) (hd : IsEntries d) {w : Nat}
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 :=
  hostScatterAdd_entries_apply d hd x idx upd n

end Idealize.ShloMosaic.ScatterRows
-- ==== Proof.KernelHost.lean ====
/-
  The arrays the kernel's host operations hand to the region, as functions of the arguments, and the region's
  output of them.

  Before the region the kernel's program appends a column of ones to the edge attributes and scatters the rows of the
  `[800000, 65]` matrix by source node into a `[50000, 65]` matrix: columns 0 … 63 hold the per-node attribute sums and
  column 64 the per-node edge count. It divides the sums by the count clamped below by one (the mean), transposes
  the weights and reshapes the bias to a row. Read at an index these are the mean, the weight at the swapped index and the
  bias entry of the specification, so the region's output of them is `nodeEmb`.
-/
import proofs.«175701_j59021440582266_2_alg».proof.KernelIdeal
import proofs.«175701_j59021440582266_2_alg».proof.Proof.Gen.KernelIdeal
import proofs.«175701_j59021440582266_2_alg».proof.Proof.LibScatterRows
import proofs.«175701_j59021440582266_2_alg».proof.Proof.NodeSpec
import Idealize.ShloMosaic.Lib.Pipeline.Value
import Idealize.ShloMosaic.Lib.ValueIdx
import Idealize.ShloMosaic.Lib.ValueLayout

noncomputable section

namespace Cert.NodeEmbed.Kernel

open Idealize.ShloMosaic Idealize.ShloMosaic.ValueIdx Idealize.ShloMosaic.ScatterRows
open Cert.KernelIdeal Cert.KernelIdeal.Gen Cert.NodeEmbed

/-! ## The host terms -/

/-- Row `r` of the index array as a vector of 800000 node numbers. -/
def idsRow0 (ei : IVec S2x800000 32) : IVec S800000 32 :=
  shapeCast S800000 (extractStridedSlice S1x800000 ![0, 0] ei slices_S2x800000_S1x800000_0_0) shapeCasts_S1x800000_S800000
def idsRow1 (ei : IVec S2x800000 32) : IVec S800000 32 :=
  shapeCast S800000 (extractStridedSlice S1x800000 ![1, 0] ei slices_S2x800000_S1x800000_1_0) shapeCasts_S1x800000_S800000

/-- The source nodes as the scatter's index column. -/
def srcCol (ei : IVec S2x800000 32) : IVec S800000x1 32 :=
  broadcastInDim S800000x1 ![0] bcast_S800000_S800000x1_0 (idsRow0 ei)

/-- The one scatter of `[edge_attr | ones]` by source node. -/
def fused (ea : FVec Ideal S800000x64 .f32) (ei : IVec S2x800000 32) : FVec Ideal S50000x65 .f32 :=
  Host.scatterAdd scatter_S50000x65_S800000x1_S800000x65_1_0_0_1
    (broadcastInDim S50000x65 ![] bcast_S_S50000x65 (constant (F := Ideal) S_ .f32 0x00000000#32))
    (srcCol ei)
    (concatenate S800000x65 1 [⟨S800000x64, ea⟩,
      ⟨S800000x1, broadcastInDim S800000x1 ![] bcast_S_S800000x1 (constant (F := Ideal) S_ .f32 0x3F800000#32)⟩]
      concatenates_S800000x64_S800000x1_S800000x65_d1)

/-- From a `[50000, 65]` matrix of sums and counts to the means: the first 64 columns over the clamped last one. -/
def meanOf (S : FVec Ideal S50000x65 .f32) : FVec Ideal S50000x64 .f32 :=
  Host.divf (extractStridedSlice S50000x64 ![0, 0] S slices_S50000x65_S50000x64_0_0)
    (broadcastInDim S50000x64 ![0, 1] bcast_S50000x1_S50000x64_0_1
      (broadcastInDim S50000x1 ![0] bcast_S50000_S50000x1_0
        (maximumf (broadcastInDim S50000 ![] bcast_S_S50000 (constant (F := Ideal) S_ .f32 0x3F800000#32))
          (shapeCast S50000 (extractStridedSlice S50000x1 ![0, 64] S slices_S50000x65_S50000x1_0_64)
            shapeCasts_S50000x1_S50000))))

/-- The per-node means the kernel's program hands to the region. -/
def meanK (ea : FVec Ideal S800000x64 .f32) (ei : IVec S2x800000 32) : FVec Ideal S50000x64 .f32 :=
  meanOf (fused ea ei)

/-! ## Read at an index -/

/-- A scalar broadcast to any shape reads the scalar. -/
theorem splat_read {α : Type} {t : Shape} (h : S_.BroadcastsInDim t ![]) (x : S_.Idx → α) (j : t.Idx) :
    broadcastInDim t ![] h x j = x ix0 :=
  broadcastInDim_apply _ h x j ix0 (fun a => a.elim0)

theorem idsRow0_read (ei : IVec S2x800000 32) (e : Fin 800000) : idsRow0 ei (ix1 e) = ei (ix2 (0 : Fin 2) e) := by
  unfold idsRow0
  rw [shapeCast_1a_a_apply, slice2_axis0_apply 0 _ _ (0 : Fin 1) e (0 : Fin 2) rfl]

theorem idsRow1_read (ei : IVec S2x800000 32) (e : Fin 800000) : idsRow1 ei (ix1 e) = ei (ix2 (1 : Fin 2) e) := by
  unfold idsRow1
  rw [shapeCast_1a_a_apply, slice2_axis0_apply 1 _ _ (0 : Fin 1) e (1 : Fin 2) rfl]

/-- The scatter's index column at edge `e` is row 0 of the index array at `e`. -/
theorem srcCol_read (ei : IVec S2x800000 32) (e : Fin 800000) : srcCol ei (ix2 e (0 : Fin 1)) = ei (ix2 (0 : Fin 2) e) := by
  unfold srcCol
  rw [broadcastInDim_apply _ bcast_S800000_S800000x1_0 _ (ix2 e (0 : Fin 1)) (ix1 e) (fun a => match a with
      | ⟨0, _⟩ => by show e.val = if (800000 : Nat) = 1 then 0 else e.val; rw [if_neg (by decide)]),
    idsRow0_read]

/-- Columns 0 … 63 of the fused scatter: the per-node attribute sums. -/
theorem fused_attr (ea : FVec Ideal S800000x64 .f32) (ei : IVec S2x800000 32) (n : Fin 50000) (k : Fin 64) :
    fused ea ei (ix2 n (⟨k.val, by omega⟩ : Fin 65)) = zeroW + segSum ei (fun e => ea (ix2 e k)) n := by
  have hd : IsRows (N := 50000) (E := 800000) (C := 65) scatter_S50000x65_S800000x1_S800000x65_1_0_0_1 := ⟨rfl, rfl, rfl, rfl⟩
  unfold fused
  rw [Host_scatterAdd_rows_apply _ hd, splat_read]
  unfold segSum src
  refine congrArg (fun z => zeroW + z) (Finset.sum_congr rfl fun e _ => ?_)
  refine if_congr (by rw [srcCol_read]) ?_ rfl
  exact concatenate_pair_apply_left (t := S800000x65) (s₁ := S800000x64) (s₂ := S800000x1) (1 : Fin 2) ea
    (broadcastInDim S800000x1 ![] bcast_S_S800000x1 (constant (F := Ideal) S_ .f32 0x3F800000#32)) concatenates_S800000x64_S800000x1_S800000x65_d1
    (ix2 e (⟨k.val, by omega⟩ : Fin 65)) rfl (ix2 e k) (fun b => match b with
      | ⟨0, _⟩ => rfl
      | ⟨1, _⟩ => rfl)

/-- Column 64 of the fused scatter: the per-node edge counts. -/
theorem fused_count (ea : FVec Ideal S800000x64 .f32) (ei : IVec S2x800000 32) (n : Fin 50000) :
    fused ea ei (ix2 n (64 : Fin 65)) = zeroW + segSum ei (fun _ => oneW) n := by
  have hd : IsRows (N := 50000) (E := 800000) (C := 65) scatter_S50000x65_S800000x1_S800000x65_1_0_0_1 := ⟨rfl, rfl, rfl, rfl⟩
  unfold fused
  rw [Host_scatterAdd_rows_apply _ hd, splat_read]
  unfold segSum src
  refine congrArg (fun z => zeroW + z) (Finset.sum_congr rfl fun e _ => ?_)
  refine if_congr (by rw [srcCol_read]) ?_ rfl
  refine (concatenate_pair_apply_right (t := S800000x65) (s₁ := S800000x64) (s₂ := S800000x1) (1 : Fin 2) ea
    (broadcastInDim S800000x1 ![] bcast_S_S800000x1 (constant (F := Ideal) S_ .f32 0x3F800000#32)) concatenates_S800000x64_S800000x1_S800000x65_d1
    (ix2 e (64 : Fin 65)) rfl rfl (ix2 e (0 : Fin 1)) (fun b => match b with
      | ⟨0, _⟩ => fun _ => rfl
      | ⟨1, _⟩ => fun hne => absurd rfl hne) rfl).trans ?_
  exact splat_read _ _ _

/-- A `[a, 1]` column cast to a vector reads, at `i`, the column at `(i, 0)`. -/
theorem column_cast_read {α : Type} {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The host's quotient of two arrays at an index is the quotient of the entries. -/
theorem Host_divf_apply {s : Shape} {φ : FTy} (x y : FVec Ideal s φ) (i : s.Idx) :
    Host.divf x y i = Ideal.div (x i) (y i) := rfl

/-- The mean array at node `n`, feature `k`. -/
theorem meanK_read (ea : FVec Ideal S800000x64 .f32) (ei : IVec S2x800000 32) (n : Fin 50000) (k : Fin 64) :
    meanK ea ei (ix2 n k) = meanAgg ea ei n k := by
  unfold meanK meanOf
  rw [Host_divf_apply, slice2_axis1_apply 0 _ _ n k (⟨k.val, by omega⟩ : Fin 65) (Nat.zero_add _).symm, fused_attr,
    broadcastInDim_apply _ bcast_S50000x1_S50000x64_0_1 _ (ix2 n k) (ix2 n (0 : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl]),
    broadcastInDim_apply _ bcast_S50000_S50000x1_0 _ (ix2 n (0 : Fin 1)) (ix1 n) (fun a => match a with
      | ⟨0, _⟩ => by show n.val = if (50000 : Nat) = 1 then 0 else n.val; rw [if_neg (by decide)]),
    maximumf_apply, splat_read, column_cast_read, slice2_axis1_apply 64 _ _ n (0 : Fin 1) (64 : Fin 65) rfl, fused_count]
  unfold meanAgg
  rfl

/-- The transposed weights at `(k, q)` are the weights at `(q, k)`. -/
theorem wt_read (W : FVec Ideal S64x64 .f32) (k q : Fin 64) :
    transpose S64x64 [1, 0] W transposes_S64x64_S64x64_1_0 (ix2 k q) = W (ix2 q k) :=
  transpose_ix2_apply W transposes_S64x64_S64x64_1_0 k q

/-- The bias row at `(0, q)` is the bias at `q`. -/
theorem bias_read (b : FVec Ideal S64 .f32) (q : Fin 64) :
    shapeCast S1x64 b shapeCasts_S64_S1x64 (ix2 (0 : Fin 1) q) = b (ix1 q) :=
  shapeCast_a_1a_apply b shapeCasts_S64_S1x64 (0 : Fin 1) q

end Cert.NodeEmbed.Kernel

end
-- ==== Proof.EdgeTail.lean ====
/-
  The last step of both programs: from the node embeddings to the edge embeddings.

  Edge `e`'s embedding is the mean of its two end nodes' embeddings, `(emb[src e] + emb[dst e]) · ½`. A node number
  below zero is first wrapped by adding 50000 (numpy's negative indexing), and each row is then fetched by a gather.
  Both programs spell this step with the same operations on the same index rows, so it is stated once, as a function of
  the node-embedding array and the two rows of node numbers.
-/
import proofs.«175701_j59021440582266_2_alg».proof.KernelIdeal
import proofs.«175701_j59021440582266_2_alg».proof.Proof.Gen.KernelIdeal
import Idealize.ShloMosaic.PureOps.Ideal

noncomputable section

namespace Cert.NodeEmbed

open Idealize.ShloMosaic
open Cert.KernelIdeal Cert.KernelIdeal.Gen

/-- A row of node numbers, negative ones wrapped, as a gather's index column. -/
def wrapIds (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The edge embeddings from the node embeddings `X` and the rows `v1` (sources) and `v3` (destinations). -/
def edgeTail (X : FVec Ideal S50000x64 .f32) (v1 v3 : IVec S800000 32) : FVec Ideal S800000x64 .f32 :=
  mulf (addf (Host.gather gather_S50000x64_S800000x1_S800000x64_1_0_n_n_0_1_164 X (wrapIds v1)) (Host.gather gather_S50000x64_S800000x1_S800000x64_1_0_n_n_0_1_164 X (wrapIds v3)))
    (broadcastInDim S800000x64 ![] bcast_S_S800000x64 (constant (F := Ideal) S_ .f32 0x3F000000#32))

end Cert.NodeEmbed

end
-- ==== Proof.KernelRun.lean ====
/-
  The kernel's run, read: its result is the edge step of `nodeEmb` of the arguments.

  The arrays the region finds are the host terms of the arguments (the means from the fused scatter, the transposed
  weights, the bias as a row); the region leaves `regionOut` of them in its output array, which is `nodeEmb`; the host
  operations after the region apply the edge step to that array and to the two rows of the index array.
-/
import proofs.«175701_j59021440582266_2_alg».proof.Proof.Gen.KernelIdeal.Frame
import proofs.«175701_j59021440582266_2_alg».proof.Proof.KernelBlocks
import proofs.«175701_j59021440582266_2_alg».proof.Proof.KernelHost
import proofs.«175701_j59021440582266_2_alg».proof.Proof.EdgeTail
import Idealize.ShloMosaic.Lib.StableHlo.Run

set_option maxRecDepth 16384

noncomputable section

namespace Cert.NodeEmbed.Kernel

open Idealize.ShloMosaic Idealize.ShloMosaic.TcCoe Idealize.ShloMosaic.ValueIdx Idealize.SL.Sem Idealize.ShloMosaic.StableHlo
open Cert.KernelIdeal Cert.KernelIdeal.Gen Cert.NodeEmbed

variable (m : (ℓ : Loc nD τ sig) → Buf (Elt Ideal) ℓ) (ρ : Dev nD → PrngReg)

/-! ## The arrays the region and the later host operations find -/

theorem V_v1 (c : Dev nD) : (V m c main_v1 : S800000.Idx → BitVec 32) = idsRow0 (m ((c.tc : Thread nD τ).loc main_arg1)) := by
  dsimp only [V, V0]
  simp only [hostOps0, hostOps0_1, hostOps0_2, List.flatten_cons, List.flatten_nil, List.append_nil, List.cons_append, List.nil_append]
  after_results
  rfl

theorem V_v3 (c : Dev nD) : (V m c main_v3 : S800000.Idx → BitVec 32) = idsRow1 (m ((c.tc : Thread nD τ).loc main_arg1)) := by
  dsimp only [V, V0]
  simp only [hostOps0, hostOps0_1, hostOps0_2, List.flatten_cons, List.flatten_nil, List.append_nil, List.cons_append, List.nil_append]
  after_results
  rfl

set_option maxHeartbeats 2000000 in
theorem V_v15 (c : Dev nD) : (V m c main_v15 : S50000x64.Idx → EReal) = meanK (m ((c.tc : Thread nD τ).loc main_arg0)) (m ((c.tc : Thread nD τ).loc main_arg1)) := by
  dsimp only [V, V0]
  simp only [hostOps0, hostOps0_1, hostOps0_2, List.flatten_cons, List.flatten_nil, List.append_nil, List.cons_append, List.nil_append]
  after_results
  generalize hS : Host.scatterAdd (F := Ideal) (φ := .f32) (w := 32) scatter_S50000x65_S800000x1_S800000x65_1_0_0_1 _ _ _ = S
  have hS' : S = fused (m ((c.tc : Thread nD τ).loc main_arg0)) (m ((c.tc : Thread nD τ).loc main_arg1)) :=
    hS.symm.trans (by unfold fused srcCol idsRow0; rfl)
  rw [show meanK (m ((c.tc : Thread nD τ).loc main_arg0)) (m ((c.tc : Thread nD τ).loc main_arg1)) = meanOf (fused (m ((c.tc : Thread nD τ).loc main_arg0)) (m ((c.tc : Thread nD τ).loc main_arg1))) from rfl, ← hS']
  unfold meanOf
  refine congrArg (fun z : FVec Ideal S50000 .f32 => Host.divf (extractStridedSlice S50000x64 ![0, 0] S slices_S50000x65_S50000x64_0_0)
    (broadcastInDim S50000x64 ![0, 1] bcast_S50000x1_S50000x64_0_1 (broadcastInDim S50000x1 ![0] bcast_S50000_S50000x1_0 z))) ?_
  show maximumf _ _ = maximumf _ _
  refine congrArg₂ maximumf ?_ ?_
  · rfl
  · rfl

theorem V_v16 (c : Dev nD) : (V m c main_v16 : S64x64.Idx → EReal)
    = transpose S64x64 [1, 0] (m ((c.tc : Thread nD τ).loc main_arg3)) transposes_S64x64_S64x64_1_0 := by
  dsimp only [V, V0]
  simp only [hostOps0, hostOps0_1, hostOps0_2, List.flatten_cons, List.flatten_nil, List.append_nil, List.cons_append, List.nil_append]
  after_results

theorem V_v17 (c : Dev nD) : (V m c main_v17 : S1x64.Idx → EReal) = shapeCast S1x64 (m ((c.tc : Thread nD τ).loc main_arg4)) shapeCasts_S64_S1x64 := by
  dsimp only [V, V0]
  simp only [hostOps0, hostOps0_1, hostOps0_2, List.flatten_cons, List.flatten_nil, List.append_nil, List.cons_append, List.nil_append]
  after_results
  rfl

/-! ## The region's output is the node embedding -/

/-- `regionOut` read at node `n`, output feature `q`. -/
theorem regionOut_apply (A0 A1 : S50000x64.Idx → EReal) (A2 : S64x64.Idx → EReal) (A3 : S1x64.Idx → EReal)
    (n : Fin 50000) (q : Fin 64) :
    regionOut A0 A1 A2 A3 (ix2 n q)
      = Ideal.logistic ((∑ k : Fin 64, (A0 (ix2 n k) + A1 (ix2 n k) * halfW) * A2 (ix2 k q)) + A3 (ix2 (0 : Fin 1) q)) := rfl

/-- `regionOut` of the node attributes, the means, the transposed weights and the bias row is `nodeEmb`. -/
theorem regionOut_eq (ea : FVec Ideal S800000x64 .f32) (ei : IVec S2x800000 32) (na : FVec Ideal S50000x64 .f32)
    (W : FVec Ideal S64x64 .f32) (b : FVec Ideal S64 .f32) :
    regionOut na (meanK ea ei) (transpose S64x64 [1, 0] W transposes_S64x64_S64x64_1_0) (shapeCast S1x64 b shapeCasts_S64_S1x64)
      = nodeEmb ea ei na W b := by
  funext i
  obtain ⟨n, q, rfl⟩ : ∃ (n : Fin 50000) (q : Fin 64), i = ix2 n q := ⟨i 0, i 1, eq_ix2 i⟩
  rw [nodeEmb_apply, regionOut_apply]
  refine congrArg Ideal.logistic (congrArg₂ (fun u v : EReal => u + v) (Finset.sum_congr rfl fun k _ => ?_) (bias_read b q))
  rw [meanK_read, wt_read]

/-- The output array after the region is `nodeEmb` of the arguments. -/
theorem region_node (c : Dev nD) :
    (dats m 0 c).arrAt 4 cfg0.N = nodeEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (final m c).trans ?_
  rw [V_main_arg2 m c, V_v15 m c, V_v16 m c, V_v17 m c]
  exact regionOut_eq _ _ _ _ _

/-! ## The host operations after the region -/

set_option maxHeartbeats 4000000 in
/-- The result buffer after the later host operations: the edge step of the region's output array and the two index rows. -/
theorem tail_eq (c : Dev nD) :
    (Pipeline.afterTail₀ cfgs (dats m) 0 (V0 m) [hostOps1] c main_v35 : S800000x64.Idx → EReal)
      = edgeTail (nodeEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (idsRow0 (m ((c.tc : Thread nD τ).loc main_arg1))) (idsRow1 (m ((c.tc : Thread nD τ).loc main_arg1))) := by
  have hX : Pipeline.withArrays (cfgs 0).spec c (V0 m c) (fun w => (dats m 0 c).arrAt w (cfgs 0).N) (Proc.devRef .tc main_v18) = (nodeEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
    (Pipeline.withArrays_arr spec0 launch0.win.arr_inj c (V0 m c) (fun w => (dats m 0 c).arrAt w (cfgs 0).N) 4).trans (region_node m c)
  have h1 : Pipeline.withArrays (cfgs 0).spec c (V0 m c) (fun w => (dats m 0 c).arrAt w (cfgs 0).N) (Proc.devRef .tc main_v1) = idsRow0 (m ((c.tc : Thread nD τ).loc main_arg1)) :=
    (Pipeline.withArrays_of_ne spec0 c (V0 m c) (fun w => (dats m 0 c).arrAt w (cfgs 0).N) main_v1
      (by exact (by decide : ∀ w, Pipeline.arrRef spec0 w ≠ main_v1))).trans (V_v1 m c)
  have h3 : Pipeline.withArrays (cfgs 0).spec c (V0 m c) (fun w => (dats m 0 c).arrAt w (cfgs 0).N) (Proc.devRef .tc main_v3) = idsRow1 (m ((c.tc : Thread nD τ).loc main_arg1)) :=
    (Pipeline.withArrays_of_ne spec0 c (V0 m c) (fun w => (dats m 0 c).arrAt w (cfgs 0).N) main_v3
      (by exact (by decide : ∀ w, Pipeline.arrRef spec0 w ≠ main_v3))).trans (V_v3 m c)
  unfold Pipeline.afterTail₀
  show StableHlo.after hostOps1 _ (Proc.devRef .tc main_v35) = _
  after_results
  rw [hX, h1, h3]
  unfold edgeTail wrapIds
  rfl

/-! ## The run -/

/-- Every weakly fair execution of the kernel's program terminates with the result at the edge step of `nodeEmb` of
    the arguments, and the arguments unchanged. -/
theorem run : θ_run defs (onTc (τ := τ) (main (F := Ideal))) ⟨m, fun _ => 0, ρ⟩ (fun r => ∀ c : Dev nD,
      r.2.mem ((c.tc : Thread nD τ).loc main_v35)
        = edgeTail (nodeEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (idsRow0 (m ((c.tc : Thread nD τ).loc main_arg1))) (idsRow1 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v35 (Pipeline.mem_restRefs_of main_v35 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.NodeEmbed.Kernel

end
-- ==== Proof.RefNode.lean ====
/-
  The reference's node embedding is `nodeEmb`.

  The reference computes the per-node sums with two scatters (the attributes into `[50000, 64]`, a vector of ones
  into `[50000]`), divides, adds half the mean to the node attributes, multiplies by `Wᵀ`, adds the bias and
  applies `1 / (1 + exp (-z))`, which at the ideal instance is the logistic function by definition. Read at a node
  and a feature, each step is one of the stage lemmas; the two scatters are sums over the edges that leave the node.
-/
import proofs.«175701_j59021440582266_2_alg».proof.Proof.Gen.ReferenceIdeal.Read
import proofs.«175701_j59021440582266_2_alg».proof.Proof.LibScatterRows
import proofs.«175701_j59021440582266_2_alg».proof.Proof.NodeSpec

noncomputable section

namespace Cert.NodeEmbed.Ref

open Idealize.ShloMosaic Idealize.ShloMosaic.ValueIdx Idealize.ShloMosaic.ScatterRows
open Cert.ReferenceIdeal Cert.ReferenceIdeal.Read Cert.NodeEmbed

variable (ea : (⟨S800000x64, .f32⟩ : BufTy).Contents (Elt Ideal)) (ei : (⟨S2x800000, .i32⟩ : BufTy).Contents (Elt Ideal))
  (na : (⟨S50000x64, .f32⟩ : BufTy).Contents (Elt Ideal)) (W : (⟨S64x64, .f32⟩ : BufTy).Contents (Elt Ideal))
  (b : (⟨S64, .f32⟩ : BufTy).Contents (Elt Ideal))

/-- The scatter indices of the attribute sum, at edge `e`, are row 0 of the index array at `e`. -/
theorem srcIdx_read (e : Fin 800000) : val_main_v5 (F := Ideal) ei (ix2 e (0 : Fin 1)) = ei (ix2 (0 : Fin 2) e) := by
  rw [val_main_v5_apply, val_main_v1_apply, val_main_v0_apply]
  congr 1
  funext a
  match a with
  | ⟨0, _⟩ => rfl
  | ⟨1, _⟩ => exact Fin.ext (Nat.mod_eq_of_lt e.isLt)

/-- And so are those of the count. -/
theorem cntIdx_read (e : Fin 800000) : val_main_v9 (F := Ideal) ei (ix2 e (0 : Fin 1)) = ei (ix2 (0 : Fin 2) e) := by
  rw [val_main_v9_apply, val_main_v1_apply, val_main_v0_apply]
  congr 1
  funext a
  match a with
  | ⟨0, _⟩ => rfl
  | ⟨1, _⟩ => exact Fin.ext (Nat.mod_eq_of_lt e.isLt)

/-- The attribute scatter at node `n`, feature `k`: zero plus the sum of feature `k` over the edges leaving `n`. -/
theorem agg_read (n : Fin 50000) (k : Fin 64) :
    val_main_v6 (F := Ideal) ea ei (ix2 n k) = zeroW + segSum ei (fun e => ea (ix2 e k)) n := by
  have hd : IsRows (N := 50000) (E := 800000) (C := 64) scatter_S50000x64_S800000x1_S800000x64_1_0_0_1 := ⟨rfl, rfl, rfl, rfl⟩
  unfold val_main_v6
  rw [Host_scatterAdd_rows_apply _ hd, val_main_v4_apply, val_main_cst_apply, Ideal.ofBits_def]
  unfold segSum src
  refine congrArg (fun z => zeroW + z) (Finset.sum_congr rfl fun e _ => ?_)
  exact if_congr (by rw [srcIdx_read]) rfl rfl

/-- The count scatter at node `n`: zero plus one for each edge leaving `n`. -/
theorem cnt_read (n : Fin 50000) :
    val_main_v10 (F := Ideal) ei (ix1 n) = zeroW + segSum ei (fun _ => oneW) n := by
  have hd : IsEntries (N := 50000) (E := 800000) scatter_S50000_S800000x1_S800000_n_0_0_1 := ⟨rfl, rfl, rfl, rfl⟩
  unfold val_main_v10
  rw [Host_scatterAdd_entries_apply _ hd, val_main_v8_apply, val_main_cst_1_apply, Ideal.ofBits_def]
  unfold segSum src
  refine congrArg (fun z => zeroW + z) (Finset.sum_congr rfl fun e _ => ?_)
  exact if_congr (by rw [cntIdx_read]) (by rw [val_main_v7_apply, val_main_cst_0_apply, Ideal.ofBits_def]) rfl

/-- The quotient is the mean. -/
theorem mean_read (n : Fin 50000) (k : Fin 64) : val_main_v14 (F := Ideal) ea ei (ix2 n k) = meanAgg ea ei n k := by
  have e1 : idx_main_v12 (idx_main_v13 (ix2 n k)) = ix1 n := funext fun a => match a with | ⟨0, _⟩ => rfl
  rw [val_main_v14_apply, agg_read, val_main_v13_apply, val_main_v12_apply, e1, val_main_v11_apply, cnt_read,
    val_main_call0_v1_apply, val_main_call0_v0_apply, val_main_cst_2_apply, Ideal.ofBits_def, Ideal.hostDivf_def,
    Ideal.maximumf_def]
  unfold meanAgg
  rfl

/-- The reference's node embedding, the last stage before the gathers, is `nodeEmb`. -/
theorem node_eq : val_main_v28 (F := Ideal) ea ei na W b = nodeEmb ea ei na W b := by
  funext i
  obtain ⟨n, q, rfl⟩ : ∃ (n : Fin 50000) (q : Fin 64), i = ix2 n q := ⟨i 0, i 1, eq_ix2 i⟩
  have eb : idx_main_v20 (idx_main_v21 (ix2 n q)) = ix1 q := funext fun a => match a with | ⟨0, _⟩ => rfl
  have el : ∀ k : Fin 64, lidx_main_v19 (ix2 n q) k = ix2 n k := fun k => funext fun a => match a with
    | ⟨0, _⟩ => rfl
    | ⟨1, _⟩ => rfl
  have er : ∀ k : Fin 64, idx_main_v18 (ridx_main_v19 (ix2 n q) k) = ix2 q k := fun k => funext fun a => match a with
    | ⟨0, _⟩ => rfl
    | ⟨1, _⟩ => rfl
  have hsum : (∑ k : Fin 64, val_main_v17 (F := Ideal) ea ei na (lidx_main_v19 (ix2 n q) k) * val_main_v18 (F := Ideal) W (ridx_main_v19 (ix2 n q) k))
      = ∑ k : Fin 64, (na (ix2 n k) + meanAgg ea ei n k * halfW) * W (ix2 q k) :=
    Finset.sum_congr rfl fun k _ => by
      rw [el, val_main_v17_apply, val_main_v16_apply, mean_read, val_main_v15_apply, val_main_cst_3_apply,
        val_main_v18_apply, er, Ideal.ofBits_def, Ideal.addf_def, Ideal.mulf_def]
  rw [val_main_v28_apply, val_main_v27_apply, val_main_cst_5_apply, val_main_v26_apply, val_main_v25_apply,
    val_main_cst_4_apply, val_main_v24_apply, val_main_v23_apply, val_main_v22_apply, val_main_v21_apply,
    val_main_v20_apply, eb, val_main_v19_apply, hsum, Ideal.ofBits_def, Ideal.hostDivf_def, Ideal.addf_def,
    Ideal.hostUnary_exp_def, Ideal.hostNegf_def, Ideal.negf_def, Ideal.addf_def, oneW_eq, nodeEmb_apply]
  rfl

end Cert.NodeEmbed.Ref

end
-- ==== Proof.RefRun.lean ====
/-
  The reference's result is the edge step of `nodeEmb` of the arguments.

  After the node embeddings the reference applies the same edge step as the kernel's program, to the same two rows of
  the index array; its node embeddings are `nodeEmb`.
-/
import proofs.«175701_j59021440582266_2_alg».proof.Proof.Gen.ReferenceIdeal.Read
import proofs.«175701_j59021440582266_2_alg».proof.Proof.RefNode
import proofs.«175701_j59021440582266_2_alg».proof.Proof.KernelHost
import proofs.«175701_j59021440582266_2_alg».proof.Proof.EdgeTail

set_option maxRecDepth 16384

noncomputable section

namespace Cert.NodeEmbed.Ref

open Idealize.ShloMosaic
open Cert.ReferenceIdeal Cert.ReferenceIdeal.Read Cert.NodeEmbed Cert.NodeEmbed.Kernel

/-- The reference's last stage is the edge step of its node embeddings and the two index rows. -/
theorem tail_shape (ea : (⟨S800000x64, .f32⟩ : BufTy).Contents (Elt Ideal)) (ei : (⟨S2x800000, .i32⟩ : BufTy).Contents (Elt Ideal))
    (na : (⟨S50000x64, .f32⟩ : BufTy).Contents (Elt Ideal)) (W : (⟨S64x64, .f32⟩ : BufTy).Contents (Elt Ideal))
    (b : (⟨S64, .f32⟩ : BufTy).Contents (Elt Ideal)) :
    val_main_v45 (F := Ideal) ea ei na W b = edgeTail (val_main_v28 (F := Ideal) ea ei na W b) (idsRow0 ei) (idsRow1 ei) := by
  unfold val_main_v45 val_main_v43 val_main_v35 val_main_v42 val_main_v44 val_main_cst_9 val_main_v34 val_main_v41
    val_main_v33 val_main_v40 val_main_v30 val_main_v37 val_main_v32 val_main_v39 val_main_v29 val_main_v36
    val_main_v31 val_main_v38 val_main_c val_main_c_7 val_main_c_6 val_main_c_8 val_main_v1 val_main_v3 val_main_v0 val_main_v2
  unfold edgeTail wrapIds idsRow0 idsRow1
  rfl

/-- The reference's result of the arguments. -/
theorem result_eq (ea : (⟨S800000x64, .f32⟩ : BufTy).Contents (Elt Ideal)) (ei : (⟨S2x800000, .i32⟩ : BufTy).Contents (Elt Ideal))
    (na : (⟨S50000x64, .f32⟩ : BufTy).Contents (Elt Ideal)) (W : (⟨S64x64, .f32⟩ : BufTy).Contents (Elt Ideal))
    (b : (⟨S64, .f32⟩ : BufTy).Contents (Elt Ideal)) :
    val_main_v45 (F := Ideal) ea ei na W b = edgeTail (nodeEmb ea ei na W b) (idsRow0 ei) (idsRow1 ei) := by
  rw [tail_shape, node_eq]

end Cert.NodeEmbed.Ref

end
-- ==== Proof.lean ====
/-
  Edge embeddings of a graph from its node and edge attributes: the kernel's program and the jnp reference compute the
  same array over the extended reals.

  There are 50000 nodes and 800000 edges with 64 features each. Both programs
    1. average, for every node, the attributes of the edges that leave it (a sum scattered by source node over the
       number of such edges clamped below by one),
    2. embed every node: `logistic ((node_attr + mean · ½) · Wᵀ + b)`,
    3. give every edge the mean of its two end nodes' embeddings.
  They differ in three places, none of which changes a value at the ideal instance:
    * the kernel's program scatters `[edge_attr | ones]` once into `[50000, 65]` and cuts the sums and the counts out
      of it, the reference scatters the attributes and a vector of ones separately: read at a node and a feature both
      are the sum over the edges leaving the node (Proof/LibScatterRows.lean);
    * the kernel computes step 2 on the matrix unit, ten blocks of 5000 nodes, with bf16 factors into a zero f32
      accumulator, the reference with one `dot_general`: a change of format is the identity here and both products are
      the same sum over the 64 contracted features;
    * the kernel applies the logistic function, the reference `1 / (1 + exp (-z))`: the same function by definition.
  Step 3 is spelt with the same operations in both, and is carried as one function of the node embeddings
  (Proof/EdgeTail.lean). No step uses that the inputs are finite: the laws used are reindexings of finite sums and
  `0 + x = x`, which hold at the infinities too.

  The modules: NodeSpec (the node embedding as one function of the arguments), LibScatterRows (a row scatter-add read at
  an element), RefNode and RefRun (the reference's stages are that function), KernelPayload, KernelBlocks, KernelHost and
  KernelRun (so is the kernel's run: the body's block, the ten blocks covering the array, the host operations before and
  after the region). The kernel's frames are the generated ones; the reference's frame is its generated run.
-/
import proofs.«175701_j59021440582266_2_alg».proof.Defs
import proofs.«175701_j59021440582266_2_alg».proof.Proof.Gen.Kernel
import proofs.«175701_j59021440582266_2_alg».proof.Proof.Gen.Kernel.Skeleton
import proofs.«175701_j59021440582266_2_alg».proof.Proof.Gen.Kernel.Launch
import proofs.«175701_j59021440582266_2_alg».proof.Proof.Gen.Kernel.Points
import proofs.«175701_j59021440582266_2_alg».proof.Proof.Gen.Kernel.Frame
import proofs.«175701_j59021440582266_2_alg».proof.Proof.Gen.KernelIdeal
import proofs.«175701_j59021440582266_2_alg».proof.Proof.Gen.KernelIdeal.Skeleton
import proofs.«175701_j59021440582266_2_alg».proof.Proof.Gen.KernelIdeal.Launch
import proofs.«175701_j59021440582266_2_alg».proof.Proof.Gen.KernelIdeal.Points
import proofs.«175701_j59021440582266_2_alg».proof.Proof.Gen.KernelIdeal.Frame
import proofs.«175701_j59021440582266_2_alg».proof.Proof.Gen.ReferenceIdeal
import proofs.«175701_j59021440582266_2_alg».proof.Proof.Gen.Pre_finite_inputs
import proofs.«175701_j59021440582266_2_alg».proof.Proof.Gen.ReferenceIdeal.Run
import proofs.«175701_j59021440582266_2_alg».proof.Proof.Gen.ReferenceIdeal.Read
import proofs.«175701_j59021440582266_2_alg».proof.Proof.KernelRun
import proofs.«175701_j59021440582266_2_alg».proof.Proof.RefRun
import Idealize.ShloMosaic.Adequacy
import Idealize.ShloMosaic.Init

noncomputable section

namespace Cert.Proof

open Idealize.ShloMosaic Idealize.SL.Sem Cert.Kernel

/-- The word-level program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the edge step of the node embedding `nodeEmb` of the (agreeing) arguments. -/
theorem algebraic : Cert.algebraic_KernelIdeal_ReferenceIdeal := by
  intro m ρ m' ρ' _ hagree
  refine ⟨_, Cert.NodeEmbed.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2]
  exact Cert.NodeEmbed.Ref.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
